-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S2048x16384 : Shape := ⟨2, ![2048, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S2048x16384 : S_.BroadcastsInDim S2048x16384 (![] : Fin 0 → Fin S2048x16384.rank)
  reducesTo_S2048x16384_S_d0_1 : S2048x16384.ReducesTo [0, 1] S_

variable [Facts]

def fn {F : FTy → Type} [FloatOps F] (main_arg0 : FVec F S4096x16384 .f32) (main_arg1 : FVec F S2048x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  main_v8
-- ==== Kernel.lean ====
abbrev S4096x16384 : Shape := ⟨2, ![4096, 16384]⟩
abbrev S2048x16384 : Shape := ⟨2, ![2048, 16384]⟩
abbrev S2048x8x2048 : Shape := ⟨3, ![2048, 8, 2048]⟩
abbrev S8x2048x2048 : Shape := ⟨3, ![8, 2048, 2048]⟩
abbrev S2048 : Shape := ⟨1, ![2048]⟩
abbrev S_ : Shape := ⟨0, ![]⟩
abbrev S2048x1 : Shape := ⟨2, ![2048, 1]⟩
abbrev S2048x2 : Shape := ⟨2, ![2048, 2]⟩
abbrev S8x2048 : Shape := ⟨2, ![8, 2048]⟩
abbrev S4096x8x2048 : Shape := ⟨3, ![4096, 8, 2048]⟩
abbrev S4096x2048 : Shape := ⟨2, ![4096, 2048]⟩
abbrev S256x8x2048 : Shape := ⟨3, ![256, 8, 2048]⟩
abbrev S256x2048 : Shape := ⟨2, ![256, 2048]⟩
abbrev S1x8x2048 : Shape := ⟨3, ![1, 8, 2048]⟩

abbrev nBuf : Space → Nat
  | .hbm => 26
  | .vmem => 5
  | .smem => 0
  | _ => 0

abbrev bufTy : (tb : Table) → Fin (tcTables nBuf tb) → BufTy
  | .hbm, ⟨0, _⟩ => ⟨S4096x16384, .f32⟩
  | .hbm, ⟨1, _⟩ => ⟨S2048x16384, .f32⟩
  | .hbm, ⟨2, _⟩ => ⟨S2048x8x2048, .f32⟩
  | .hbm, ⟨3, _⟩ => ⟨S8x2048x2048, .f32⟩
  | .hbm, ⟨4, _⟩ => ⟨S2048, .i32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i1⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S2048x1, .i32⟩
  | .hbm, ⟨21, _⟩ => ⟨S2048x1, .i32⟩
  | .hbm, ⟨22, _⟩ => ⟨S2048x2, .i32⟩
  | .hbm, ⟨23, _⟩ => ⟨S8x2048, .f32⟩
  | .hbm, ⟨24, _⟩ => ⟨S4096x8x2048, .f32⟩
  | .hbm, ⟨25, _⟩ => ⟨S4096x2048, .f32⟩
  | .local _ .vmem, ⟨0, _⟩ => ⟨S256x8x2048, .f32⟩
  | .local _ .vmem, ⟨1, _⟩ => ⟨S256x8x2048, .f32⟩
  | .local _ .vmem, ⟨2, _⟩ => ⟨S8x2048, .f32⟩
  | .local _ .vmem, ⟨3, _⟩ => ⟨S256x2048, .f32⟩
  | .local _ .vmem, ⟨4, _⟩ => ⟨S256x2048, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_c : Ref sig .tc := ⟨.hbm, 6, rfl⟩
abbrev main_call0_v3 : Ref sig .tc := ⟨.hbm, 7, rfl⟩
abbrev main_call0_v4 : Ref sig .tc := ⟨.hbm, 8, rfl⟩
abbrev main_call0_c_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_c_1 : Ref sig .tc := ⟨.hbm, 13, rfl⟩
abbrev main_call0_v8 : Ref sig .tc := ⟨.hbm, 14, rfl⟩
abbrev main_call0_v9 : Ref sig .tc := ⟨.hbm, 15, rfl⟩
abbrev main_call0_c_2 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S2048x16384_S2048x8x2048 : S2048x16384.ShapeCasts S2048x8x2048
  transposes_S2048x8x2048_S8x2048x2048_1_0_2 : S2048x8x2048.Transposes [1, 0, 2] S8x2048x2048
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  shapeCasts_S4096x16384_S4096x8x2048 : S4096x16384.ShapeCasts S4096x8x2048
  inb_S256x8x2048_S256x8x2048_0_0_0 : ∀ a, (![0, 0, 0] : Fin 3 → Nat) a + S256x8x2048.size a ≤ S256x8x2048.size a
  h_S256x8x2048 : 0 < S256x8x2048.numel
  shapeCasts_S256x8x2048_S256x8x2048 : S256x8x2048.ShapeCasts S256x8x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  shapeCasts_S8x2048_S1x8x2048 : S8x2048.ShapeCasts S1x8x2048
  broadcasts_S1x8x2048_S256x8x2048 : S1x8x2048.Broadcasts S256x8x2048
  reduces_S256x8x2048_S256x2048 : S256x8x2048.Reduces [1] S256x2048
  inb_S256x2048_S256x2048_0_0 : ∀ a, (![0, 0] : Fin 2 → Nat) a + S256x2048.size a ≤ S256x2048.size a
  h_S256x2048 : 0 < S256x2048.numel
  gather_S8x2048x2048_S2048x2_S8x2048_0_12_n_n_12_1_811_wf : GatherDims.WF S8x2048x2048 S2048x2 S8x2048 [0] [1, 2] [] [1, 2] [] 1 ![8, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8x2048.size a ≤ S4096x8x2048.size a
  hwx0_0 : ∀ i : grid0.Coords, EltTy.bits .f32 = 32 ∨ (Rect.block (s := S4096x8x2048) S256x8x2048.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x2048.size a
  hwx0_1 : ∀ i : grid0.Coords, EltTy.bits .f32 = 32 ∨ (Rect.block (s := S8x2048) S8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .f32 = 32 ∨ (Rect.block (s := S4096x2048) S256x2048.size (cc0_transform_2 i) (hinb0_2 i)).WholeWords (EltTy.packing .f32)

variable [Facts₀]

def gather_S8x2048x2048_S2048x2_S8x2048_0_12_n_n_12_1_811 : GatherDims S8x2048x2048 S2048x2 S8x2048 where
  offsetDims := [0]
  collapsedSliceDims := [1, 2]
  operandBatchingDims := []
  startIndicesBatchingDims := []
  startIndexMap := [1, 2]
  indexVectorDim := 1
  sliceSizes := ![8, 1, 1]
  wf := gather_S8x2048x2048_S2048x2_S8x2048_0_12_n_n_12_1_811_wf

abbrev win0_0 : Pipeline.Window sig grid0 :=
  Pipeline.Window.ofSpec (Memref.whole main_v2) S256x8x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x2048.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x16384 : Shape := ⟨2, ![4096, 16384]⟩
abbrev S2048x16384 : Shape := ⟨2, ![2048, 16384]⟩
abbrev S2048x2048 : Shape := ⟨2, ![2048, 2048]⟩
abbrev S_ : Shape := ⟨0, ![]⟩
abbrev S1x2048x1x2048 : Shape := ⟨4, ![1, 2048, 1, 2048]⟩
abbrev S1x2048x8x2048 : Shape := ⟨4, ![1, 2048, 8, 2048]⟩
abbrev S16384x2048 : Shape := ⟨2, ![16384, 2048]⟩
abbrev S4096x2048 : Shape := ⟨2, ![4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S2048x16384, .f32⟩
  | .hbm, ⟨2, _⟩ => ⟨S2048x2048, .i32⟩
  | .hbm, ⟨3, _⟩ => ⟨S2048x2048, .i32⟩
  | .hbm, ⟨4, _⟩ => ⟨S_, .i32⟩
  | .hbm, ⟨5, _⟩ => ⟨S2048x2048, .i32⟩
  | .hbm, ⟨6, _⟩ => ⟨S2048x2048, .i32⟩
  | .hbm, ⟨7, _⟩ => ⟨S2048x2048, .i1⟩
  | .hbm, ⟨8, _⟩ => ⟨S2048x2048, .f32⟩
  | .hbm, ⟨9, _⟩ => ⟨S1x2048x1x2048, .f32⟩
  | .hbm, ⟨10, _⟩ => ⟨S1x2048x8x2048, .f32⟩
  | .hbm, ⟨11, _⟩ => ⟨S2048x16384, .f32⟩
  | .hbm, ⟨12, _⟩ => ⟨S2048x16384, .f32⟩
  | .hbm, ⟨13, _⟩ => ⟨S16384x2048, .f32⟩
  | .hbm, ⟨14, _⟩ => ⟨S4096x2048, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  shapeCasts_S2048x2048_S1x2048x1x2048 : S2048x2048.ShapeCasts S1x2048x1x2048
  bcast_S1x2048x1x2048_S1x2048x8x2048_0_1_2_3 : S1x2048x1x2048.BroadcastsInDim S1x2048x8x2048 (![0, 1, 2, 3] : Fin 4 → Fin S1x2048x8x2048.rank)
  shapeCasts_S1x2048x8x2048_S2048x16384 : S1x2048x8x2048.ShapeCasts S2048x16384
  transposes_S2048x16384_S16384x2048_1_0 : S2048x16384.Transposes [1, 0] S16384x2048
  dot_S4096x16384_S16384x2048_S4096x2048_1_0_0_1_n_n_wf : DotDims.WF S4096x16384 S16384x2048 S4096x2048 [1] [0] [0] [1] [] []

variable [Facts₀]

def dot_S4096x16384_S16384x2048_S4096x2048_1_0_0_1_n_n : DotDims S4096x16384 S16384x2048 S4096x2048 where
  lhsContracting := [1]
  rhsContracting := [0]
  lhsNonContracting := [0]
  rhsNonContracting := [1]
  lhsBatch := []
  rhsBatch := []
  wf := dot_S4096x16384_S16384x2048_S4096x2048_1_0_0_1_n_n_wf

class Facts : Prop extends Facts₀ where

variable [Facts]
-- ==== Proof.LagSum.lean ====
/-
  The arithmetic that joins the two programs.

  A row of a 2048 × 16384 matrix is read as eight consecutive stretches of 2048 columns (the eight "lags").  The mask is the
  2048 × 2048 identity repeated eight times along the columns: its entry at row `n`, column `k` is one exactly when
  `k mod 2048 = n`.  Multiplying a row by the mask therefore keeps, in row `n`, only the eight columns `l · 2048 + n`
  (`l = 0 … 7`), and a contraction of that row against any other vector of length 16384 collapses to a sum of eight products.

  On the extended reals a product with zero is zero whatever the other factor is (`0 · ±∞ = 0`), so the collapse needs no
  finiteness of the entries: it is `mul_zero`, a re-indexing of a finite sum along an injection, and nothing else.
-/
import Idealize.ShloMosaic.PureOps.Ideal
import Idealize.ShloMosaic.Lib.ValueIdx

noncomputable section

open scoped BigOperators

namespace Cert.LagDiag

open Idealize.ShloMosaic Idealize.ShloMosaic.ValueIdx

/-- The column of lag `l` that meets row `n` of the repeated identity: `l · 2048 + n`. -/
def col (l : Fin 8) (n : Fin 2048) : Fin 16384 :=
  ⟨l.val * 2048 + n.val, by have := l.isLt; have := n.isLt; omega⟩

theorem col_val (l : Fin 8) (n : Fin 2048) : (col l n).val = l.val * 2048 + n.val := rfl

theorem col_injective (n : Fin 2048) : Function.Injective fun l : Fin 8 => col l n := by
  intro a b h
  have h' : a.val * 2048 + n.val = b.val * 2048 + n.val := congrArg Fin.val h
  exact Fin.ext (by omega)

/-- A sum over the 16384 columns whose terms vanish off the columns `≡ n (mod 2048)` is the sum over the eight lags. -/
theorem sum_eq_sum_lags (n : Fin 2048) (f : Fin 16384 → EReal)
    (hf : ∀ k : Fin 16384, k.val % 2048 ≠ n.val → f k = 0) :
    ∑ k : Fin 16384, f k = ∑ l : Fin 8, f (col l n) := by
  rw [← Finset.sum_image (s := Finset.univ) (g := fun l : Fin 8 => col l n) (f := f)
    (fun a _ b _ h => col_injective n h)]
  symm
  refine Finset.sum_subset (Finset.subset_univ _) fun k _ hk => hf k fun hmod => hk ?_
  have hk' := k.isLt
  refine Finset.mem_image.mpr ⟨⟨k.val / 2048, by omega⟩, Finset.mem_univ _, Fin.ext ?_⟩
  show k.val / 2048 * 2048 + n.val = k.val
  omega

/-- The masked contraction: against a mask `δ` that is one on the columns `≡ n (mod 2048)` and zero elsewhere, the sum over
    all columns of `a k · (b k · δ k)` is the sum over the eight lags of `a · b` at column `l · 2048 + n`. -/
theorem masked_sum (n : Fin 2048) (a b δ : Fin 16384 → EReal)
    (h1 : ∀ k : Fin 16384, k.val % 2048 = n.val → δ k = 1)
    (h0 : ∀ k : Fin 16384, k.val % 2048 ≠ n.val → δ k = 0) :
    ∑ k : Fin 16384, a k * (b k * δ k) = ∑ l : Fin 8, a (col l n) * b (col l n) := by
  rw [sum_eq_sum_lags n (fun k => a k * (b k * δ k)) (fun k hk => by rw [h0 k hk, mul_zero, mul_zero])]
  refine Finset.sum_congr rfl fun l _ => ?_
  have hl := l.isLt
  have hn := n.isLt
  rw [h1 (col l n) (by rw [col_val]; omega), mul_one]

/-- The identity's entry as the reference computes it — the word "row = column" of two 32-bit words below 2048, turned into a
    float — is one on the diagonal and zero off it. -/
theorem eye_entry (r c : Nat) (hr : r < 2048) (hc : c < 2048) :
    (FloatOps.uitofp (F := Ideal) .f32 (IntOp.cmpi .eq (IntOp.addi (BitVec.ofNat 32 r) 0#32) (BitVec.ofNat 32 c)) : EReal)
      = if r = c then 1 else 0 := by
  have hadd : IntOp.addi (BitVec.ofNat 32 r) 0#32 = BitVec.ofNat 32 r := by
    unfold IntOp.addi; exact BitVec.add_zero _
  rw [hadd]
  by_cases h : r = c
  · subst h
    rw [if_pos rfl]
    have : IntOp.cmpi .eq (BitVec.ofNat 32 r) (BitVec.ofNat 32 r) = 1#1 := by
      unfold IntOp.cmpi; simp
    rw [this]
    show (((1#1 : BitVec 1).toNat : ℝ) : EReal) = 1
    norm_num
  · rw [if_neg h]
    have hne : BitVec.ofNat 32 r ≠ BitVec.ofNat 32 c := by
      intro e
      have := congrArg BitVec.toNat e
      simp only [BitVec.toNat_ofNat] at this
      omega
    have hb : (BitVec.ofNat 32 r == BitVec.ofNat 32 c) = false := beq_eq_false_iff_ne.mpr hne
    have : IntOp.cmpi .eq (BitVec.ofNat 32 r) (BitVec.ofNat 32 c) = 0#1 := by
      unfold IntOp.cmpi; show BitVec.ofBool (BitVec.ofNat 32 r == BitVec.ofNat 32 c) = 0#1; rw [hb]; rfl
    rw [this]
    show (((0#1 : BitVec 1).toNat : ℝ) : EReal) = 0
    norm_num

/-- What both programs compute, entry by entry: for batch row `p` and variable `q`, the sum over the eight lags of
    `x[p, l·2048 + q] · w[q, l·2048 + q]`. -/
def lagSum (x : (⟨2, ![4096, 16384]⟩ : Shape).Idx → EReal) (w : (⟨2, ![2048, 16384]⟩ : Shape).Idx → EReal)
    (p : Fin 4096) (q : Fin 2048) : EReal :=
  ∑ l : Fin 8, x (ix2 p (col l q)) * w (ix2 q (col l q))

/-- The same as one array over the result's index set. -/
def G (x : (⟨2, ![4096, 16384]⟩ : Shape).Idx → EReal) (w : (⟨2, ![2048, 16384]⟩ : Shape).Idx → EReal) :
    (⟨2, ![4096, 2048]⟩ : Shape).Idx → EReal :=
  fun j => lagSum x w ⟨(j 0).val, idx2_lt0 j⟩ ⟨(j 1).val, idx2_lt1 j⟩

theorem G_ix2 (x : (⟨2, ![4096, 16384]⟩ : Shape).Idx → EReal) (w : (⟨2, ![2048, 16384]⟩ : Shape).Idx → EReal)
    (p : Fin 4096) (q : Fin 2048) : G x w (ix2 p q) = lagSum x w p q := rfl

end Cert.LagDiag

end
-- ==== Proof.RefValue.lean ====
/-
  The reference, entry by entry.

  The reference builds the mask `[2048, 16384]` — the 2048 × 2048 identity (`row = column` as a float) repeated eight times
  along the columns —, multiplies the weight array by it entry by entry, and contracts the batch array with the transposed
  product over all 16384 columns.  Entry `(p, q)` of its result is therefore
  `∑ k < 16384, x[p, k] · (w[q, k] · mask[q, k])`, where `mask[q, k]` is one when `k mod 2048 = q` and zero otherwise;
  by the masked contraction (LagSum) this is the sum over the eight lags of `x[p, l·2048 + q] · w[q, l·2048 + q]`.
-/
import proofs.«131678_j35029753266602_2_alg».proof.Proof.Gen.ReferenceIdeal.Read
import proofs.«131678_j35029753266602_2_alg».proof.Proof.LagSum

noncomputable section

open scoped BigOperators

namespace Cert.ReferenceIdeal.RefValue

open Cert.ReferenceIdeal Cert.ReferenceIdeal.Gen Cert.ReferenceIdeal.Read
open Idealize.ShloMosaic Idealize.ShloMosaic.ValueIdx Cert.LagDiag

/-- The mask's entry at row `n`, column `k`: the identity's entry at `(n, k mod 2048)`. -/
theorem mask_apply (n : Fin 2048) (k : Fin 16384) :
    val_main_v8 (F := Ideal) (ix2 n k) = if n.val = k.val % 2048 then 1 else 0 := by
  have hn := n.isLt
  have hk := k.isLt
  rw [val_main_v8_apply, val_main_v7_apply, val_main_v6_apply, val_main_v5_apply, val_main_v4_apply, val_main_v3_apply,
    val_main_v0_apply, val_main_v2_apply, val_main_c_apply, val_main_v1_apply]
  have e0 : ((idx_main_v6 (idx_main_v7 (idx_main_v8 (ix2 n k)))) 0).val = n.val := by
    show (((0 * 2048 + (n.val * 16384 + k.val) / 16384 % 2048) * 1 + 0) * 2048 + (n.val * 16384 + k.val) % 2048) / 2048 = n.val
    omega
  have e1 : ((idx_main_v6 (idx_main_v7 (idx_main_v8 (ix2 n k)))) 1).val = k.val % 2048 := by
    show (((0 * 2048 + (n.val * 16384 + k.val) / 16384 % 2048) * 1 + 0) * 2048 + (n.val * 16384 + k.val) % 2048) % 2048 = k.val % 2048
    omega
  rw [e0, e1]
  exact eye_entry n.val (k.val % 2048) hn (Nat.mod_lt _ (by decide))

/-- THE REFERENCE IS THE LAG SUM: its result array is `G` of its two arguments. -/
theorem result_eq (x : (⟨S4096x16384, .f32⟩ : BufTy).Contents (Elt Ideal)) (w : (⟨S2048x16384, .f32⟩ : BufTy).Contents (Elt Ideal)) :
    val_main_v11 (F := Ideal) x w = G x w := by
  funext j
  obtain ⟨p, q, rfl⟩ : ∃ (p : Fin 4096) (q : Fin 2048), j = ix2 p q := ⟨j 0, j 1, eq_ix2 j⟩
  rw [val_main_v11_apply, G_ix2]
  have hterm : ∀ k : Fin 16384,
      x (lidx_main_v11 (ix2 p q) k) * val_main_v10 (F := Ideal) w (ridx_main_v11 (ix2 p q) k)
        = x (ix2 p k) * (w (ix2 q k) * val_main_v8 (F := Ideal) (ix2 q k)) := fun k => by
    have e1 : lidx_main_v11 (ix2 p q) k = ix2 p k := funext fun a => Fin.ext (by
      match a with
      | ⟨0, _⟩ => rfl
      | ⟨1, _⟩ => rfl)
    have e2 : idx_main_v10 (ridx_main_v11 (ix2 p q) k) = ix2 q k := funext fun a => Fin.ext (by
      match a with
      | ⟨0, _⟩ => rfl
      | ⟨1, _⟩ => rfl)
    rw [val_main_v10_apply, val_main_v9_apply, e1, e2]
    rfl
  rw [Finset.sum_congr rfl fun k _ => hterm k]
  unfold lagSum
  exact masked_sum q (fun k => x (ix2 p k)) (fun k => w (ix2 q k)) (fun k => val_main_v8 (F := Ideal) (ix2 q k))
    (fun k hk => by rw [mask_apply, if_pos hk.symm])
    (fun k hk => by rw [mask_apply, if_neg (fun h => hk h.symm)])

end Cert.ReferenceIdeal.RefValue

end
-- ==== Proof.LibGatherDiag.lean ====
/-
  `stablehlo.gather` of a rank-3 operand `[A, N1, N2]` at an `[R, 2]` array of start-index pairs, read at an index.

  This is what taking a diagonal over the last two axes lowers to (`jnp.diagonal` of a transposed array): the result has shape
  `[A, R]`; its axis 0 is the operand's axis 0 kept whole (an offset axis of slice size `A`), the operand's axes 1 and 2 are
  collapsed (slice size 1) and receive the two components of the start index, which row `r` of the start indices supplies.
  Result element `(a, r)` is therefore the operand at `(a, i, j)` with `i`, `j` the pair `idx[r, 0]`, `idx[r, 1]` read as
  signed integers and clamped into the operand's extents, as StableHLO clamps every start index.
-/
import Idealize.ShloMosaic.Lib.ValueIdx

noncomputable section

namespace Cert.LibGatherDiag

open Idealize.ShloMosaic Idealize.ShloMosaic.ValueIdx

variable {α : Type}

/-- The dimension numbers: offset axis `[0]`, collapsed operand axes `[1, 2]`, start index map `[1, 2]`, the index vector
    along axis 1 of the start indices, slice sizes `[A, 1, 1]`.  Their side conditions `wf` are decided on literal shapes. -/
abbrev pairDims (A N1 N2 R : Nat)
    (wf : GatherDims.WF ⟨3, ![A, N1, N2]⟩ ⟨2, ![R, 2]⟩ ⟨2, ![A, R]⟩ [0] [1, 2] [] [1, 2] [] 1 ![A, 1, 1]) :
    GatherDims ⟨3, ![A, N1, N2]⟩ ⟨2, ![R, 2]⟩ ⟨2, ![A, R]⟩ where
  offsetDims := [0]
  collapsedSliceDims := [1, 2]
  operandBatchingDims := []
  startIndicesBatchingDims := []
  startIndexMap := [1, 2]
  indexVectorDim := 1
  sliceSizes := ![A, 1, 1]
  wf := wf

/-- THE GATHER READ AT `(a, r)`: the operand at `(a, idx[r, 0], idx[r, 1])`, the two start-index components read signed and
    clamped into `[0, N1 − 1]` and `[0, N2 − 1]`. -/
theorem gather_pair_apply {A N1 N2 R w : Nat} (h1 : 0 < N1) (h2 : 0 < N2)
    (wf : GatherDims.WF ⟨3, ![A, N1, N2]⟩ ⟨2, ![R, 2]⟩ ⟨2, ![A, R]⟩ [0] [1, 2] [] [1, 2] [] 1 ![A, 1, 1])
    (x : (⟨3, ![A, N1, N2]⟩ : Shape).Idx → α) (idx : IVec ⟨2, ![R, 2]⟩ w) (a : Fin A) (r : Fin R) :
    Host.gather (pairDims A N1 N2 R wf) x idx (ix2 a r)
      = x (ix3 a ⟨min (idx (ix2 r (0 : Fin 2))).toInt.toNat (N1 - 1), by omega⟩
                 ⟨min (idx (ix2 r (1 : Fin 2))).toInt.toNat (N2 - 1), by omega⟩) := by
  unfold Host.gather
  congr 1
  funext b
  refine Fin.ext ?_
  match b with
  | ⟨0, _⟩ =>
    show (pairDims A N1 N2 R wf).start (ix2 a r) idx 0 + (pairDims A N1 N2 R wf).batchCoord (ix2 a r) 0
      + (pairDims A N1 N2 R wf).offCoord (ix2 a r) 0 = a.val
    rw [GatherDims.batchCoord_eq_zero _ _ _ List.not_mem_nil]
    unfold GatherDims.start
    rw [dif_neg (show (0 : Fin 3) ∉ (pairDims A N1 N2 R wf).startIndexMap from
      (by decide : (0 : Fin 3) ∉ ([1, 2] : List (Fin 3))))]
    simp only [Nat.add_zero, Nat.zero_add]
    unfold GatherDims.offCoord
    rw [dif_pos (show (0 : Fin 3) ∈ (pairDims A N1 N2 R wf).sKept from
      (by decide : (0 : Fin 3) ∈ ([0] : List (Fin 3))))]
    rfl
  | ⟨1, _⟩ =>
    show (pairDims A N1 N2 R wf).start (ix2 a r) idx 1 + (pairDims A N1 N2 R wf).batchCoord (ix2 a r) 1
      + (pairDims A N1 N2 R wf).offCoord (ix2 a r) 1 = min (idx (ix2 r (0 : Fin 2))).toInt.toNat (N1 - 1)
    rw [GatherDims.batchCoord_eq_zero _ _ _ List.not_mem_nil,
      GatherDims.offCoord_eq_zero _ _ _ (fun h => ((GatherDims.mem_sKept _ _).mp h).1
        (show (1 : Fin 3) ∈ (pairDims A N1 N2 R wf).collapsedSliceDims from
          (by decide : (1 : Fin 3) ∈ ([1, 2] : List (Fin 3)))))]
    simp only [Nat.add_zero]
    unfold GatherDims.start
    rw [dif_pos (show (1 : Fin 3) ∈ (pairDims A N1 N2 R wf).startIndexMap from
      (by decide : (1 : Fin 3) ∈ ([1, 2] : List (Fin 3))))]
    have hsi : (pairDims A N1 N2 R wf).siIdx (ix2 a r) ⟨List.idxOf (1 : Fin 3) (pairDims A N1 N2 R wf).startIndexMap,
        List.idxOf_lt_length_iff.2 (show (1 : Fin 3) ∈ (pairDims A N1 N2 R wf).startIndexMap from
          (by decide : (1 : Fin 3) ∈ ([1, 2] : List (Fin 3))))⟩ = ix2 r (0 : Fin 2) := by
      funext c; refine Fin.ext ?_
      match c with
      | ⟨0, _⟩ => rfl
      | ⟨1, _⟩ => rfl
    rw [hsi]
    rfl
  | ⟨2, _⟩ =>
    show (pairDims A N1 N2 R wf).start (ix2 a r) idx 2 + (pairDims A N1 N2 R wf).batchCoord (ix2 a r) 2
      + (pairDims A N1 N2 R wf).offCoord (ix2 a r) 2 = min (idx (ix2 r (1 : Fin 2))).toInt.toNat (N2 - 1)
    rw [GatherDims.batchCoord_eq_zero _ _ _ List.not_mem_nil,
      GatherDims.offCoord_eq_zero _ _ _ (fun h => ((GatherDims.mem_sKept _ _).mp h).1
        (show (2 : Fin 3) ∈ (pairDims A N1 N2 R wf).collapsedSliceDims from
          (by decide : (2 : Fin 3) ∈ ([1, 2] : List (Fin 3)))))]
    simp only [Nat.add_zero]
    unfold GatherDims.start
    rw [dif_pos (show (2 : Fin 3) ∈ (pairDims A N1 N2 R wf).startIndexMap from
      (by decide : (2 : Fin 3) ∈ ([1, 2] : List (Fin 3))))]
    have hsi : (pairDims A N1 N2 R wf).siIdx (ix2 a r) ⟨List.idxOf (2 : Fin 3) (pairDims A N1 N2 R wf).startIndexMap,
        List.idxOf_lt_length_iff.2 (show (2 : Fin 3) ∈ (pairDims A N1 N2 R wf).startIndexMap from
          (by decide : (2 : Fin 3) ∈ ([1, 2] : List (Fin 3))))⟩ = ix2 r (1 : Fin 2) := by
      funext c; refine Fin.ext ?_
      match c with
      | ⟨0, _⟩ => rfl
      | ⟨1, _⟩ => rfl
    rw [hsi]
    rfl

end Cert.LibGatherDiag

end
-- ==== Proof.Entry.lean ====
/-
  What the kernel's one region finds in its two input arrays.

  Before the region the program re-lays its arguments.  The batch array `x : [4096, 16384]` is viewed as `[4096, 8, 2048]`
  (a row is its eight lags of 2048 columns, one after the other): entry `(p, l, q)` of the view is `x[p, l·2048 + q]`.
  The weight array `w : [2048, 16384]` is viewed as `[2048, 8, 2048]`, its first two axes are exchanged, and the diagonal
  over the two axes of extent 2048 is taken by a gather whose start indices are the pairs `(n, n)`: entry `(l, n)` of the
  resulting `[8, 2048]` array is `w[n, l·2048 + n]`.  The pairs are built from an iota made non-negative the usual way
  (`n < 0 ? n + 2048 : n`); the iota's entries lie in `[0, 2048)`, so the selection keeps them, and the gather's clamping
  of start indices into the operand's extents leaves them where they are.
-/
import proofs.«131678_j35029753266602_2_alg».proof.Proof.Gen.KernelIdeal.Frame
import proofs.«131678_j35029753266602_2_alg».proof.Proof.LagSum
import proofs.«131678_j35029753266602_2_alg».proof.Proof.LibGatherDiag
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.LagDiag Cert.LibGatherDiag

variable {α : Type}

/-! ## The two re-laid arrays as functions of the arguments -/

/-- The iota `0 … 2047` with negative entries moved up by 2048 (there are none). -/
def wrapIota : IVec S2048 32 :=
  select (cmpi .slt (iotaInDim S2048 32 0) (broadcastInDim S2048 ![] bcast_S_S2048 (constantI S_ 32 0#32)))
    (addi (iotaInDim S2048 32 0) (broadcastInDim S2048 ![] bcast_S_S2048 (constantI S_ 32 2048#32)))
    (iotaInDim S2048 32 0)

/-- The gather's start indices: row `n` is the pair `(n, n)`. -/
def diagPairs : IVec S2048x2 32 :=
  concatenate S2048x2 1 [⟨S2048x1, broadcastInDim S2048x1 ![0] bcast_S2048_S2048x1_0 wrapIota⟩,
    ⟨S2048x1, broadcastInDim S2048x1 ![0] bcast_S2048_S2048x1_0 wrapIota⟩] concatenates_S2048x1_S2048x1_S2048x2_d1

/-- The batch array viewed by lags. -/
def lagsOf (x : S4096x16384.Idx → α) : S4096x8x2048.Idx → α :=
  shapeCast S4096x8x2048 x shapeCasts_S4096x16384_S4096x8x2048

/-- The eight diagonals of the weight array. -/
def diagOf (w : S2048x16384.Idx → α) : S8x2048.Idx → α :=
  Host.gather gather_S8x2048x2048_S2048x2_S8x2048_0_12_n_n_12_1_811
    (transpose S8x2048x2048 [1, 0, 2] (shapeCast S2048x8x2048 w shapeCasts_S2048x16384_S2048x8x2048)
      transposes_S2048x8x2048_S8x2048x2048_1_0_2)
    diagPairs

section AtEntry
variable {F : FTy → Type} [FloatOps F]
variable (m : (ℓ : Loc nD τ sig) → Buf (Elt F) ℓ)

/-- The region's first input array is the batch argument viewed by lags. -/
theorem V_lags (c : Dev nD) :
    (V m c main_v2 : S4096x8x2048.Idx → Elt F .f32) = lagsOf (m ((c : Thread nD τ).loc main_arg0)) := by
  dsimp only [Gen.V]
  simp only [Gen.hostOps0, Gen.hostOps0_1, Gen.hostOps0_2, List.flatten_cons, List.flatten_nil, List.append_nil,
    List.cons_append, List.nil_append]
  after_results
  rfl

/-- The region's second input array is the weight argument's eight diagonals. -/
theorem V_diag (c : Dev nD) :
    (V m c main_v1 : S8x2048.Idx → Elt F .f32) = diagOf (m ((c : Thread nD τ).loc main_arg1)) := by
  dsimp only [Gen.V]
  simp only [Gen.hostOps0, Gen.hostOps0_1, Gen.hostOps0_2, List.flatten_cons, List.flatten_nil, List.append_nil,
    List.cons_append, List.nil_append]
  after_results
  unfold diagOf diagPairs wrapIota
  simp only [TRef.toBuf, TRef.ofBuf, cast_eq]
  rfl

end AtEntry

/-! ## The two re-laid arrays read at an index -/

/-- Entry `(p, l, q)` of the view by lags is the batch array at row `p`, column `l · 2048 + q`. -/
theorem lagsOf_apply (x : S4096x16384.Idx → α) (p : Fin 4096) (l : Fin 8) (q : Fin 2048) :
    lagsOf x (ix3 p l q) = x (ix2 p (col l q)) := by
  unfold lagsOf
  refine shapeCast_apply x shapeCasts_S4096x16384_S4096x8x2048 (ix3 p l q) (ix2 p (col l q)) ?_
  rewrite [Shape.rowMajor_val_two, Shape.rowMajor_val_three]
  show p.val * 16384 + (l.val * 2048 + q.val) = (p.val * 8 + l.val) * 2048 + q.val
  omega

/-- A 32-bit word holding a number below 2048 reads that number as a signed integer. -/
theorem toInt_ofNat_small (n : Nat) (h : n < 2048) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- The non-negative iota is the iota. -/
theorem wrapIota_apply (n : Fin 2048) : wrapIota (ix1 n) = BitVec.ofNat 32 n.val := by
  have hn := n.isLt
  show Scalar.select (IntOp.cmpi .slt (BitVec.ofNat 32 n.val) 0#32) (IntOp.addi (BitVec.ofNat 32 n.val) 2048#32)
    (BitVec.ofNat 32 n.val) = _
  have hs : IntOp.cmpi .slt (BitVec.ofNat 32 n.val) 0#32 = 0#1 := by
    unfold IntOp.cmpi
    show BitVec.ofBool ((BitVec.ofNat 32 n.val).slt 0#32) = 0#1
    have : (BitVec.ofNat 32 n.val).slt 0#32 = false := by
      unfold BitVec.slt
      rw [toInt_ofNat_small n.val hn]
      simp
    rw [this]; rfl
  rw [hs, select_zero]

/-- Row `n` of the start indices is `(n, n)`. -/
theorem diagPairs_apply (n : Fin 2048) (c : Fin 2) : diagPairs (ix2 n c) = BitVec.ofNat 32 n.val := by
  have hcol : broadcastInDim S2048x1 ![0] bcast_S2048_S2048x1_0 wrapIota (ix2 n (0 : Fin 1)) = BitVec.ofNat 32 n.val := by
    refine (broadcastInDim_apply _ bcast_S2048_S2048x1_0 wrapIota (ix2 n (0 : Fin 1)) (ix1 n) (fun a => ?_)).trans
      (wrapIota_apply n)
    match a with
    | ⟨0, _⟩ => show n.val = if (2048 : Nat) = 1 then 0 else n.val; rw [if_neg (by decide)]
  unfold diagPairs
  match c with
  | ⟨0, _⟩ =>
    have h := concatenate_pair_apply_left (t := S2048x2) (s₁ := S2048x1) (s₂ := S2048x1) (1 : Fin 2)
      (broadcastInDim S2048x1 ![0] bcast_S2048_S2048x1_0 wrapIota)
      (broadcastInDim S2048x1 ![0] bcast_S2048_S2048x1_0 wrapIota)
      concatenates_S2048x1_S2048x1_S2048x2_d1 (ix2 n (0 : Fin 2)) rfl (ix2 n (0 : Fin 1))
      (fun b => by
        match b with
        | ⟨0, _⟩ => rfl
        | ⟨1, _⟩ => rfl)
    exact h.trans hcol
  | ⟨1, _⟩ =>
    have h := concatenate_pair_apply_right (t := S2048x2) (s₁ := S2048x1) (s₂ := S2048x1) (1 : Fin 2)
      (broadcastInDim S2048x1 ![0] bcast_S2048_S2048x1_0 wrapIota)
      (broadcastInDim S2048x1 ![0] bcast_S2048_S2048x1_0 wrapIota)
      concatenates_S2048x1_S2048x1_S2048x2_d1 (ix2 n (1 : Fin 2)) rfl rfl (ix2 n (0 : Fin 1))
      (fun b hb => by
        match b with
        | ⟨0, _⟩ => rfl
        | ⟨1, _⟩ => exact absurd rfl hb)
      rfl
    exact h.trans hcol

/-- Entry `(l, n)` of the diagonals is the weight array at row `n`, column `l · 2048 + n`. -/
theorem diagOf_apply (w : S2048x16384.Idx → α) (l : Fin 8) (n : Fin 2048) :
    diagOf w (ix2 l n) = w (ix2 n (col l n)) := by
  have hn := n.isLt
  unfold diagOf
  rw [show gather_S8x2048x2048_S2048x2_S8x2048_0_12_n_n_12_1_811
      = pairDims 8 2048 2048 2048 gather_S8x2048x2048_S2048x2_S8x2048_0_12_n_n_12_1_811_wf from rfl]
  rw [gather_pair_apply (by decide) (by decide)]
  have hclamp : ∀ c : Fin 2, min (diagPairs (ix2 n c)).toInt.toNat (2048 - 1) = n.val := fun c => by
    rw [diagPairs_apply, toInt_ofNat_small n.val hn]
    show min n.val 2047 = n.val
    omega
  refine (transpose_apply [1, 0, 2] _ transposes_S2048x8x2048_S8x2048x2048_1_0_2 _ (ix3 n l n) (fun b => ?_)).trans ?_
  · match b with
    | ⟨0, _⟩ => rfl
    | ⟨1, _⟩ => exact (hclamp 0).symm
    | ⟨2, _⟩ => exact (hclamp 1).symm
  · refine shapeCast_apply w shapeCasts_S2048x16384_S2048x8x2048 (ix3 n l n) (ix2 n (col l n)) ?_
    rewrite [Shape.rowMajor_val_two, Shape.rowMajor_val_three]
    show n.val * 16384 + (l.val * 2048 + n.val) = (n.val * 8 + l.val) * 2048 + n.val
    omega

end Cert.KernelIdeal.Entry

end
-- ==== Proof.BodyValue.lean ====
/-
  What the kernel body stores, entry by entry.

  At a grid point the body holds a `[256, 8, 2048]` block `x0` of the batch array viewed by lags and the whole `[8, 2048]`
  array `x1` of diagonals.  It multiplies `x0` by `x1` repeated along the batch axis and sums the products over the lag
  axis.  Read on the extended reals, the entry for row `r` of the block and variable `q` is
  `∑ l < 8, x0[r, l, q] · x1[l, q]`: the reduction's neutral start contributes nothing, and the shape changes on the way
  (a cast to the same shape, a new leading unit axis, the repetition along it) only rename indices.
-/
import proofs.«131678_j35029753266602_2_alg».proof.Proof.Gen.KernelIdeal.Skeleton
import Idealize.ShloMosaic.PureOps.Ideal.Laws
import Idealize.ShloMosaic.Lib.Pipeline.Value
import Idealize.ShloMosaic.Lib.ValueIdx

noncomputable section

open scoped BigOperators

namespace Cert.KernelIdeal.BodyValue

open Cert.KernelIdeal Cert.KernelIdeal.Gen Idealize.ShloMosaic Idealize.ShloMosaic.ValueIdx

/-- The diagonals repeated along the batch axis, read at `(r, l, q)`: the diagonal entry `(l, q)`. -/
theorem repeated_apply (x1 : Vec Ideal S8x2048 .f32) (r : Fin 256) (l : Fin 8) (q : Fin 2048) :
    broadcastTo S256x8x2048 (shapeCast S1x8x2048 (shapeCast S8x2048 x1 shapeCasts_S8x2048_S8x2048) shapeCasts_S8x2048_S1x8x2048)
      broadcasts_S1x8x2048_S256x8x2048 (ix3 r l q) = x1 (ix2 l q) := by
  refine (broadcastTo_apply _ broadcasts_S1x8x2048_S256x8x2048 (ix3 r l q) (ix3 (0 : Fin 1) l q) (fun a => ?_)).trans ?_
  · match a with
    | ⟨0, _⟩ => show (0 : Nat) = if (1 : Nat) = 1 then 0 else r.val; rw [if_pos rfl]
    | ⟨1, _⟩ => show l.val = if (8 : Nat) = 1 then 0 else l.val; rw [if_neg (by decide)]
    | ⟨2, _⟩ => show q.val = if (2048 : Nat) = 1 then 0 else q.val; rw [if_neg (by decide)]
  · refine (shapeCast_apply _ shapeCasts_S8x2048_S1x8x2048 (ix3 (0 : Fin 1) l q) (ix2 l q) ?_).trans
      (congrFun (shapeCast_self x1 shapeCasts_S8x2048_S8x2048) _)
    rewrite [Shape.rowMajor_val_two, Shape.rowMajor_val_three]
    show l.val * 2048 + q.val = (0 * 8 + l.val) * 2048 + q.val
    omega

/-- The index the lag-axis reduction inserts at lag `l` over the result index `(r, q)` is `(r, l, q)`. -/
theorem lift_eq (r : Fin 256) (l : Fin 8) (q : Fin 2048) :
    reduces_S256x8x2048_S256x2048.lift (ix2 r q) l = ix3 r l q :=
  funext fun a => Fin.ext (by
    match a with
    | ⟨0, _⟩ => rfl
    | ⟨1, _⟩ => rfl
    | ⟨2, _⟩ => rfl)

/-- THE STORED ENTRY: for row `r` of the block and variable `q`, the sum over the eight lags of the block's entry times the
    diagonal's. -/
theorem stored_apply (x0 : Vec Ideal S256x8x2048 .f32) (x1 : Vec Ideal S8x2048 .f32) (r : Fin 256) (q : Fin 2048) :
    k0_pay1 (F := Ideal) x0 x1 (ix2 r q) = ∑ l : Fin 8, x0 (ix3 r l q) * x1 (ix2 l q) := by
  unfold k0_pay1
  refine (Ideal.multiReduction_add_single _ 0x00000000#32 reduces_S256x8x2048_S256x2048 (.inl rfl) rfl (ix2 r q)).trans ?_
  refine Finset.sum_congr rfl fun (l : Fin 8) _ => ?_
  rw [lift_eq r l q]
  show shapeCast S256x8x2048 x0 shapeCasts_S256x8x2048_S256x8x2048 (ix3 r l q) * _ = _
  rw [repeated_apply x1 r l q, shapeCast_self x0 shapeCasts_S256x8x2048_S256x8x2048]

end Cert.KernelIdeal.BodyValue

end
-- ==== Proof.Whole.lean ====
/-
  From the blocks to the whole result array.

  The grid has sixteen points; point `t` handles the 256 batch rows `256·t … 256·t + 255` and all 2048 variables.  Its first
  input block is those rows of the batch array viewed by lags, its second input block is the whole array of diagonals, and
  the block it writes back is those rows of the result.  By what the region finds in its input arrays (Entry) and what the
  body stores (BodyValue), the entry the point writes for row `p` and variable `q` is
  `∑ l < 8, x[p, l·2048 + q] · w[q, l·2048 + q]` — the value of the one function `G` of the two arguments at `(p, q)`.
  The sixteen blocks cover every row, so after the run the result array is `G` of the arguments.
-/
import proofs.«131678_j35029753266602_2_alg».proof.Proof.Gen.KernelIdeal.Value
import proofs.«131678_j35029753266602_2_alg».proof.Proof.Entry
import proofs.«131678_j35029753266602_2_alg».proof.Proof.BodyValue
import proofs.«131678_j35029753266602_2_alg».proof.Proof.LagSum
import Idealize.ShloMosaic.Lib.Pipeline.Value

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.LagDiag
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The result array: the lag sums of the two arguments. -/
abbrev result (c : Dev nD) : Buf (Elt Ideal) ((c : Thread nD τ).loc main_v3) :=
  G (m ((c : Thread nD τ).loc main_arg0)) (m ((c : Thread nD τ).loc main_arg1))

/-- The printed index maps over the sixteen points: the batch window moves with the output along the rows and sits at
    block 0 on its other two axes; the diagonals' window never moves; the output has one block of columns and at most
    sixteen of rows. -/
theorem index_maps : ∀ t : Fin cfg0.N, win0_0.index t (0 : Fin 3) = win0_2.index t (0 : Fin 2)
    ∧ win0_0.index t (1 : Fin 3) = 0 ∧ win0_0.index t (2 : Fin 3) = 0
    ∧ win0_1.index t (0 : Fin 2) = 0 ∧ win0_1.index t (1 : Fin 2) = 0
    ∧ win0_2.index t (1 : Fin 2) = 0 ∧ win0_2.index t (0 : Fin 2) ≤ 15 :=
  (by decide +kernel : ∀ t : Fin grid0.N, _)

/-- Every block of rows is some point's. -/
theorem rows_onto : ∀ b : Fin 16, ∃ t : Fin cfg0.N, win0_2.index t = ![b.val, 0] :=
  (by decide +kernel : ∀ b : Fin 16, ∃ t : Fin grid0.N, win0_2.index t = ![b.val, 0])

/-- The batch window's block at point `t`, entry `(r, l, q)`: the batch argument at row `256·(block row) + r`,
    column `l · 2048 + q`. -/
theorem batch_block_apply (c : Dev nD) (t : Fin cfg0.N) (r : Fin 256) (l : Fin 8) (q : Fin 2048) (p : Fin 4096)
    (hp : p.val = win0_2.index t (0 : Fin 2) * 256 + r.val) :
    (iblk m c 0 t : Vec Ideal S256x8x2048 .f32) (ix3 r l q)
      = (m ((c : Thread nD τ).loc main_arg0) : S4096x16384.Idx → EReal) (ix2 p (col l q)) := by
  obtain ⟨e0, e1, e2, -⟩ := index_maps t
  unfold iblk
  rw [View.read_apply]
  show V m c main_v2 _ = _
  rw [Entry.V_lags m c]
  refine (congrArg (Entry.lagsOf (m ((c : Thread nD τ).loc main_arg0))) ?_).trans (Entry.lagsOf_apply _ p l q)
  funext a
  apply Fin.ext
  match a with
  | ⟨0, _⟩ => show win0_0.index t (0 : Fin 3) * 256 + 1 * r.val = p.val; rw [e0, hp]; omega
  | ⟨1, _⟩ => show win0_0.index t (1 : Fin 3) * 8 + 1 * l.val = l.val; rw [e1]; omega
  | ⟨2, _⟩ => show win0_0.index t (2 : Fin 3) * 2048 + 1 * q.val = q.val; rw [e2]; omega

/-- The diagonals' window's block at any point, entry `(l, q)`: the weight argument at row `q`, column `l · 2048 + q`. -/
theorem diag_block_apply (c : Dev nD) (t : Fin cfg0.N) (l : Fin 8) (q : Fin 2048) :
    (iblk m c 1 t : Vec Ideal S8x2048 .f32) (ix2 l q)
      = (m ((c : Thread nD τ).loc main_arg1) : S2048x16384.Idx → EReal) (ix2 q (col l q)) := by
  obtain ⟨-, -, -, e3, e4, -⟩ := index_maps t
  unfold iblk
  rw [View.read_apply]
  show V m c main_v1 _ = _
  rw [Entry.V_diag m c]
  refine (congrArg (Entry.diagOf (m ((c : Thread nD τ).loc main_arg1))) ?_).trans (Entry.diagOf_apply _ l q)
  funext a
  apply Fin.ext
  match a with
  | ⟨0, _⟩ => show win0_1.index t (0 : Fin 2) * 8 + 1 * l.val = l.val; rw [e3]; omega
  | ⟨1, _⟩ => show win0_1.index t (1 : Fin 2) * 2048 + 1 * q.val = q.val; rw [e4]; omega

/-- What point `t` stores at entry `y` of its block is the result at the array index `i` under it. -/
theorem stored_is_result (c : Dev nD) (t : Fin cfg0.N) (y : S256x2048.Idx) (i : S4096x2048.Idx)
    (h0 : (i 0).val = win0_2.index t (0 : Fin 2) * 256 + (y 0).val) (h1 : (i 1).val = (y 1).val) :
    k0_pay1 (F := Ideal) (iblk m c 0 t) (iblk m c 1 t) y = result m c i := by
  obtain ⟨r, q, rfl⟩ : ∃ (r : Fin 256) (q : Fin 2048), y = ix2 r q := ⟨y 0, y 1, eq_ix2 y⟩
  obtain ⟨p, q', rfl⟩ : ∃ (p : Fin 4096) (q' : Fin 2048), i = ix2 p q' := ⟨i 0, i 1, eq_ix2 i⟩
  obtain rfl : q' = q := Fin.ext h1
  refine (BodyValue.stored_apply (iblk m c 0 t) (iblk m c 1 t) r q').trans ?_
  show _ = lagSum (m ((c : Thread nD τ).loc main_arg0)) (m ((c : Thread nD τ).loc main_arg1)) p q'
  unfold lagSum
  refine Finset.sum_congr rfl fun l _ => ?_
  rw [batch_block_apply m c t r l q' p h0, diag_block_apply m c t l q']

/-- WHAT POINT `t` WRITES BACK is its block of the result. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero zero2]
  simp only [View.ld_unit_zero (S := S256x8x2048) zero3, View.ld_unit_zero (S := S8x2048) zero2]
  obtain ⟨-, -, -, -, -, e5, -⟩ := index_maps t
  funext y
  refine stored_is_result m c t _ _ ?_ ?_
  · show win0_2.index t (0 : Fin 2) * 256 + 1 * (y 0).val = win0_2.index t (0 : Fin 2) * 256 + (y 0).val
    omega
  · show win0_2.index t (1 : Fin 2) * 2048 + 1 * (y 1).val = (y 1).val
    rw [e5]; omega

/-- An index of the array is in point `t`'s block iff each coordinate is in the block's range on its axis. -/
theorem mem_block (t : Fin cfg0.N) (i : S4096x2048.Idx) :
    i ∈ ((cfg0.win 2).blk t).view.set ↔ ∀ a : Fin 2, win0_2.index t a * S256x2048.size a ≤ (i a).val
      ∧ (i a).val < win0_2.index t a * S256x2048.size a + S256x2048.size a := by
  show i ∈ ((View.whole main_v3).slice (win0_2.rect t)).set ↔ _
  rw [View.set_slice_whole, Rect.mem_set_unit]
  exact Iff.rfl

/-- Every index of the result array lies in some point's block: row `p` in the block of rows `p / 256`. -/
theorem cover (i : S4096x2048.Idx) :
    ∃ t : Fin cfg0.N, (cfg0.win 2).flush t = true ∧ i ∈ ((cfg0.win 2).blk t).view.set := by
  have hi0 : (i 0).val < 4096 := (i 0).isLt
  have hi1 : (i 1).val < 2048 := (i 1).isLt
  obtain ⟨t, ht⟩ := rows_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 2048 ≤ (i 1).val ∧ (i 1).val < win0_2.index t (1 : Fin 2) * 2048 + 2048
    omega

/-- THE RESULT ARRAY after the run is the lag sums of the arguments. -/
theorem final (c : Dev nD) : (dats m 0 c).arrAt 2 cfg0.N = result m c :=
  (dats m 0 c).arrAt_eq_of_cover 2 (result m c) (fun t _ => flushed_eq m c t) (cover)

/-- THE RUN, READ: the result array at the lag sums of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/-
  The kernel against its reference: `x · (w ∘ mask)ᵀ` for the mask that repeats the 2048 × 2048 identity eight times along
  the 16384 columns.

  The reference multiplies the weight array by the mask and contracts the batch array with the product over all 16384
  columns.  The kernel never forms the mask: it reads off the eight diagonals `w[n, l·2048 + n]` of the weight array, views
  a batch row as its eight lags of 2048 columns, and sums lag by lag.  On the extended reals both results are, at batch row
  `p` and variable `q`,

      ∑ l < 8, x[p, l·2048 + q] · w[q, l·2048 + q].

  For the reference this is the masked contraction: the mask's entry is one on the columns `≡ q (mod 2048)` and zero on the
  others, a product with zero is zero on the extended reals whatever the other factor, and what is left is a sum over the
  eight columns `l·2048 + q` (LagSum, RefValue).  For the kernel it is what the region finds in its two input arrays (Entry:
  the view by lags, and the diagonals taken by a transpose and a gather at the index pairs `(n, n)`), what the body stores
  (BodyValue: a product and a sum over the lag axis), and the sixteen row blocks covering the result (Whole).  No step uses
  that the inputs are finite.

  The three frames are the generated ones (the reference's is its generated run with the result forgotten); the idealized
  kernel is the kernel's own text read on the extended reals, so there is nothing to preserve.
-/
import proofs.«131678_j35029753266602_2_alg».proof.Defs
import proofs.«131678_j35029753266602_2_alg».proof.Proof.Gen.Kernel
import proofs.«131678_j35029753266602_2_alg».proof.Proof.Gen.Kernel.Skeleton
import proofs.«131678_j35029753266602_2_alg».proof.Proof.Gen.Kernel.Launch
import proofs.«131678_j35029753266602_2_alg».proof.Proof.Gen.Kernel.Points
import proofs.«131678_j35029753266602_2_alg».proof.Proof.Gen.Kernel.Frame
import proofs.«131678_j35029753266602_2_alg».proof.Proof.Gen.KernelIdeal
import proofs.«131678_j35029753266602_2_alg».proof.Proof.Gen.KernelIdeal.Skeleton
import proofs.«131678_j35029753266602_2_alg».proof.Proof.Gen.KernelIdeal.Launch
import proofs.«131678_j35029753266602_2_alg».proof.Proof.Gen.KernelIdeal.Points
import proofs.«131678_j35029753266602_2_alg».proof.Proof.Gen.KernelIdeal.Frame
import proofs.«131678_j35029753266602_2_alg».proof.Proof.Gen.ReferenceIdeal
import proofs.«131678_j35029753266602_2_alg».proof.Proof.Gen.Pre_finite_inputs
import proofs.«131678_j35029753266602_2_alg».proof.Proof.Gen.KernelIdeal.Value
import proofs.«131678_j35029753266602_2_alg».proof.Proof.Gen.ReferenceIdeal.Run
import proofs.«131678_j35029753266602_2_alg».proof.Proof.Gen.ReferenceIdeal.Read
import proofs.«131678_j35029753266602_2_alg».proof.Proof.RefValue
import proofs.«131678_j35029753266602_2_alg».proof.Proof.Whole
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the lag sums of its arguments (Whole) and the
    reference's at the masked contraction of its own, which is the same lag sums (RefValue). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
